-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 74
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelHost.lean ====
/-
  The frame of the program: four host lines cut the two rows out of the index table, the matrix product
  x · weight is launched on a grid of twenty row tiles (5000 rows each, the weight block resident), and
  sixty-five host lines follow (degrees, their reciprocals, two gather / scatter-add rounds, the bias).
  Every weakly fair execution ends, nothing faults, and the four argument arrays end as launched:
  the launch only reads x and weight and only writes its own result array, and every host line writes
  only its own result buffer.  Stated for any float instance.
-/
import proofs.«180807_j39307540693803_2_alg».proof.Proof.Gen.Kernel.Launch
import proofs.«180807_j39307540693803_2_alg».proof.Proof.Gen.Kernel.Skeleton
import proofs.«180807_j39307540693803_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The host lines after the launch, stretch by stretch (the two outlined selections are stretches of their own). -/
abbrev laterOps : List (List (HloOp τ sig (Elt F))) := [hostOps1, hostOps1_1, hostOps1_2, hostOps1_3, hostOps1_4]

/-- What the buffers of core `c` hold when the launch begins: the launch memory after the four lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- The program is: the lines before the launch, the launch, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] laterOps (by simp only [List.Forall]; exact hostOps0_sub)
    (by simp only [List.Forall]; exact fresh0) main_chain

/-- The later lines touch unscoped TensorCore buffers only. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- No later line writes x, weight or the product's array: each writes its own result buffer, which is none of the three. -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_3 : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_4 : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

theorem later_keeps : ∀ ops ∈ (laterOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- The lines before the launch write only the two index rows and their reshapes: the launch finds each argument as launched. -/
theorem V_arg (b : Ref sig .tc) (hb : b ≠ main_v0 ∧ b ≠ main_v1 ∧ b ≠ main_v2 ∧ b ≠ main_v3) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem V_main_arg0 (c : Dev nD) : V m c main_arg0 = m ((c : Thread nD τ).loc main_arg0) := V_arg m main_arg0 (by decide) c
theorem V_main_arg1 (c : Dev nD) : V m c main_arg1 = m ((c : Thread nD τ).loc main_arg1) := V_arg m main_arg1 (by decide) c
theorem V_main_arg2 (c : Dev nD) : V m c main_arg2 = m ((c : Thread nD τ).loc main_arg2) := V_arg m main_arg2 (by decide) c
theorem V_main_arg3 (c : Dev nD) : V m c main_arg3 = m ((c : Thread nD τ).loc main_arg3) := V_arg m main_arg3 (by decide) c

end Cert.Kernel.Hand

end
-- ==== Proof.KernelFrame.lean ====
/-
  The launch of the row-tiled matrix product, and the frame of the whole program.
  At grid point t the body is handed rows 5000·t … 5000·t + 4999 of x and the whole weight, and leaves in
  the result tile the product of the two (as the one store of the body's one payload); the tile is
  written back to rows 5000·t … of the product's array.  Nothing else is touched, so after the later host
  lines the four argument arrays are as launched.  Stated for any float instance.
-/
import proofs.«180807_j39307540693803_2_alg».proof.Proof.KernelHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles -/

/-- Window `w`'s tile at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole tile of x, of the result, and the whole weight, as rectangles of their staging buffers. -/
abbrev rTile : Rect S5000x128 := Rect.unit (s := S5000x128) ![0, 0] S5000x128.size inb_S5000x128_S5000x128_0_0
abbrev rWeight : Rect S128x128 := Rect.unit (s := S128x128) ![0, 0] S128x128.size inb_S128x128_S128x128_0_0

/-- What the body leaves in the result tile: its one store, of the product of the x tile and the weight. -/
def outTile (x0 : Vec F S5000x128 .f32) (x1 : Vec F S128x128 .f32) : Vec F S5000x128 .f32 :=
  View.canon [⟨rTile, k0_pay1 (View.ld x0 rTile) (View.ld x1 rWeight)⟩]

/-- The one store covers the tile. -/
theorem outTile_cover (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body -/

set_option maxHeartbeats 1000000 in
/-- The body on whole staging buffers — the x tile at `x0`, the weight at `x1`, the result tile at anything — ends with the
    inputs as they were and the result tile at `outTile x0 x1`. -/
theorem sound_kernel (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

/-! ## The proof data of the launch -/

/-- The arrays as the launch finds them; after the body at point `t` each input's buffer at its tile and the result's at
    `outTile` of the two; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = outTile (iblk m c 0 t) (iblk m c 1 t) := by dsimp only [dats]

/-- Each input's current staging buffer holds its tile at every point, fetched there or not (the weight is fetched once:
    its block index never moves). -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)
theorem before_w (c : Dev nD) (t : Fin cfg0.N) (d) : (dats m 0 c).before 1 t d = iblk m c 1 t :=
  ((dats m 0 c).before_in_eq_fetched 1 rfl (fun _ => rfl) (fun _ _ _ => rfl)
      (fun t => by rw [after_w]; unfold Dat.blockOf iblk; rw [A_eq]; try rfl) t d).trans
    (by unfold Dat.fetched Dat.blockOf iblk; rw [A_eq]; try rfl)

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; the three arrays of the launch end at what the proof data say, every other
    unscoped buffer as the later host lines leave it. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The later lines write neither the bias nor the index table. -/
theorem later_arg (b : Ref sig .tc) (hb : ∀ w, Pipeline.arrRef spec0 w ≠ b)
    (hw : ∀ op ∈ (laterOps : List (List (HloOp τ sig (Elt F)))).flatten, Proc.devRef .tc b ∉ op.writes) (c : Dev nD) :
    Pipeline.afterTail₀ cfgs (dats m) 0 (V0 m) laterOps c b = V m c b := by
  unfold Pipeline.afterTail₀
  rw [StableHlo.after_of_forall_not_mem (b := Proc.devRef .tc b) _ _ hw,
    Pipeline.withArrays_of_ne _ c (V0 m c) _ b hb]

theorem later_writes (b : Ref sig .tc)
    (hb : b ≠ main_cst ∧ b ≠ main_v5 ∧ b ≠ main_cst_0 ∧ b ≠ main_v6 ∧ b ≠ main_v7 ∧ b ≠ main_v8 ∧ b ≠ main_cst_1 ∧ b ≠ main_v9 ∧ b ≠ main_v10
      ∧ b ≠ main_v11 ∧ b ≠ main_cst_2 ∧ b ≠ main_v12 ∧ b ≠ main_v13 ∧ b ≠ main_cst_3 ∧ b ≠ main_v14 ∧ b ≠ main_v15 ∧ b ≠ main_cst_4
      ∧ b ≠ main_call0_v0 ∧ b ≠ main_call0_v1 ∧ b ≠ main_v16
      ∧ b ≠ main_v17 ∧ b ≠ main_cst_5 ∧ b ≠ main_v18 ∧ b ≠ main_v19 ∧ b ≠ main_cst_6 ∧ b ≠ main_v20 ∧ b ≠ main_v21 ∧ b ≠ main_cst_7
      ∧ b ≠ main_call1_v0 ∧ b ≠ main_call1_v1 ∧ b ≠ main_v22
      ∧ b ≠ main_v23 ∧ b ≠ main_c ∧ b ≠ main_v24 ∧ b ≠ main_v25 ∧ b ≠ main_c_8 ∧ b ≠ main_v26 ∧ b ≠ main_v27 ∧ b ≠ main_v28 ∧ b ≠ main_v29 ∧ b ≠ main_v30
      ∧ b ≠ main_cst_9 ∧ b ≠ main_v31 ∧ b ≠ main_v32 ∧ b ≠ main_v33 ∧ b ≠ main_v34 ∧ b ≠ main_v35 ∧ b ≠ main_c_10 ∧ b ≠ main_v36 ∧ b ≠ main_v37
      ∧ b ≠ main_c_11 ∧ b ≠ main_v38 ∧ b ≠ main_v39 ∧ b ≠ main_v40 ∧ b ≠ main_v41 ∧ b ≠ main_v42 ∧ b ≠ main_cst_12 ∧ b ≠ main_v43 ∧ b ≠ main_v44
      ∧ b ≠ main_v45 ∧ b ≠ main_v46 ∧ b ≠ main_v47 ∧ b ≠ main_v48 ∧ b ≠ main_v49 ∧ b ≠ main_v50) :
    ∀ op ∈ (laterOps : List (List (HloOp τ sig (Elt F)))).flatten, Proc.devRef .tc b ∉ op.writes := by
  refine List.forall_iff_forall_mem.mp ?_
  simp only [hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes,
    StableHlo.reshape_writes, Finset.mem_singleton]
  obtain ⟨h1, h2, h3, h4, h5, h6, h7, h8, h9, h10, h11, h12, h13, h14, h15, h16, h17, h18, h19, h20, h21, h22, h23, h24, h25, h26, h27, h28, h29, h30,
    h31, h32, h33, h34, h35, h36, h37, h38, h39, h40, h41, h42, h43, h44, h45, h46, h47, h48, h49, h50, h51, h52, h53, h54, h55, h56, h57, h58, h59, h60,
    h61, h62, h63, h64, h65⟩ := hb
  exact ⟨StableHlo.devRef_ne_of_ne h1, StableHlo.devRef_ne_of_ne h2, StableHlo.devRef_ne_of_ne h3, StableHlo.devRef_ne_of_ne h4, StableHlo.devRef_ne_of_ne h5,
    StableHlo.devRef_ne_of_ne h6, StableHlo.devRef_ne_of_ne h7, StableHlo.devRef_ne_of_ne h8, StableHlo.devRef_ne_of_ne h9, StableHlo.devRef_ne_of_ne h10,
    StableHlo.devRef_ne_of_ne h11, StableHlo.devRef_ne_of_ne h12, StableHlo.devRef_ne_of_ne h13, StableHlo.devRef_ne_of_ne h14, StableHlo.devRef_ne_of_ne h15,
    StableHlo.devRef_ne_of_ne h16, StableHlo.devRef_ne_of_ne h17, StableHlo.devRef_ne_of_ne h18, StableHlo.devRef_ne_of_ne h19, StableHlo.devRef_ne_of_ne h20,
    StableHlo.devRef_ne_of_ne h21, StableHlo.devRef_ne_of_ne h22, StableHlo.devRef_ne_of_ne h23, StableHlo.devRef_ne_of_ne h24, StableHlo.devRef_ne_of_ne h25,
    StableHlo.devRef_ne_of_ne h26, StableHlo.devRef_ne_of_ne h27, StableHlo.devRef_ne_of_ne h28, StableHlo.devRef_ne_of_ne h29, StableHlo.devRef_ne_of_ne h30,
    StableHlo.devRef_ne_of_ne h31, StableHlo.devRef_ne_of_ne h32, StableHlo.devRef_ne_of_ne h33, StableHlo.devRef_ne_of_ne h34, StableHlo.devRef_ne_of_ne h35,
    StableHlo.devRef_ne_of_ne h36, StableHlo.devRef_ne_of_ne h37, StableHlo.devRef_ne_of_ne h38, StableHlo.devRef_ne_of_ne h39, StableHlo.devRef_ne_of_ne h40,
    StableHlo.devRef_ne_of_ne h41, StableHlo.devRef_ne_of_ne h42, StableHlo.devRef_ne_of_ne h43, StableHlo.devRef_ne_of_ne h44, StableHlo.devRef_ne_of_ne h45,
    StableHlo.devRef_ne_of_ne h46, StableHlo.devRef_ne_of_ne h47, StableHlo.devRef_ne_of_ne h48, StableHlo.devRef_ne_of_ne h49, StableHlo.devRef_ne_of_ne h50,
    StableHlo.devRef_ne_of_ne h51, StableHlo.devRef_ne_of_ne h52, StableHlo.devRef_ne_of_ne h53, StableHlo.devRef_ne_of_ne h54, StableHlo.devRef_ne_of_ne h55,
    StableHlo.devRef_ne_of_ne h56, StableHlo.devRef_ne_of_ne h57, StableHlo.devRef_ne_of_ne h58, StableHlo.devRef_ne_of_ne h59, StableHlo.devRef_ne_of_ne h60,
    StableHlo.devRef_ne_of_ne h61, StableHlo.devRef_ne_of_ne h62, StableHlo.devRef_ne_of_ne h63, StableHlo.devRef_ne_of_ne h64, StableHlo.devRef_ne_of_ne h65⟩

set_option synthInstance.maxSize 65536 in
theorem W_main_arg2 (c : Dev nD) : Pipeline.afterTail₀ cfgs (dats m) 0 (V0 m) laterOps c main_arg2 = m ((c : Thread nD τ).loc main_arg2) :=
  (later_arg m main_arg2 (by decide) (later_writes main_arg2 (by decide)) c).trans (V_main_arg2 m c)
set_option synthInstance.maxSize 65536 in
theorem W_main_arg3 (c : Dev nD) : Pipeline.afterTail₀ cfgs (dats m) 0 (V0 m) laterOps c main_arg3 = m ((c : Thread nD τ).loc main_arg3) :=
  (later_arg m main_arg3 (by decide) (later_writes main_arg3 (by decide)) c).trans (V_main_arg3 m c)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.Kernel.Hand

end
-- ==== Proof.KernelIdealHost.lean ====
/-
  The frame of the program: four host lines cut the two rows out of the index table, the matrix product
  x · weight is launched on a grid of twenty row tiles (5000 rows each, the weight block resident), and
  sixty-five host lines follow (degrees, their reciprocals, two gather / scatter-add rounds, the bias).
  Every weakly fair execution ends, nothing faults, and the four argument arrays end as launched:
  the launch only reads x and weight and only writes its own result array, and every host line writes
  only its own result buffer.  Stated for any float instance.
-/
import proofs.«180807_j39307540693803_2_alg».proof.Proof.Gen.KernelIdeal.Launch
import proofs.«180807_j39307540693803_2_alg».proof.Proof.Gen.KernelIdeal.Skeleton
import proofs.«180807_j39307540693803_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The host lines after the launch, stretch by stretch (the two outlined selections are stretches of their own). -/
abbrev laterOps : List (List (HloOp τ sig (Elt F))) := [hostOps1, hostOps1_1, hostOps1_2, hostOps1_3, hostOps1_4]

/-- What the buffers of core `c` hold when the launch begins: the launch memory after the four lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor

/-- The program is: the lines before the launch, the launch, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] laterOps (by simp only [List.Forall]; exact hostOps0_sub)
    (by simp only [List.Forall]; exact fresh0) main_chain

/-- The later lines touch unscoped TensorCore buffers only. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop

/-- No later line writes x, weight or the product's array: each writes its own result buffer, which is none of the three. -/
theorem keeps1 : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_1 : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_2 : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_3 : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem keeps1_4 : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)

theorem later_keeps : ∀ ops ∈ (laterOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop

/-- The lines before the launch write only the two index rows and their reshapes: the launch finds each argument as launched. -/
theorem V_arg (b : Ref sig .tc) (hb : b ≠ main_v0 ∧ b ≠ main_v1 ∧ b ≠ main_v2 ∧ b ≠ main_v3) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem V_main_arg0 (c : Dev nD) : V m c main_arg0 = m ((c : Thread nD τ).loc main_arg0) := V_arg m main_arg0 (by decide) c
theorem V_main_arg1 (c : Dev nD) : V m c main_arg1 = m ((c : Thread nD τ).loc main_arg1) := V_arg m main_arg1 (by decide) c
theorem V_main_arg2 (c : Dev nD) : V m c main_arg2 = m ((c : Thread nD τ).loc main_arg2) := V_arg m main_arg2 (by decide) c
theorem V_main_arg3 (c : Dev nD) : V m c main_arg3 = m ((c : Thread nD τ).loc main_arg3) := V_arg m main_arg3 (by decide) c

end Cert.KernelIdeal.Hand

end
-- ==== Proof.KernelIdealFrame.lean ====
/-
  The launch of the row-tiled matrix product, and the frame of the whole program.
  At grid point t the body is handed rows 5000·t … 5000·t + 4999 of x and the whole weight, and leaves in
  the result tile the product of the two (as the one store of the body's one payload); the tile is
  written back to rows 5000·t … of the product's array.  Nothing else is touched, so after the later host
  lines the four argument arrays are as launched.  Stated for any float instance.
-/
import proofs.«180807_j39307540693803_2_alg».proof.Proof.KernelIdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tiles -/

/-- Window `w`'s tile at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole tile of x, of the result, and the whole weight, as rectangles of their staging buffers. -/
abbrev rTile : Rect S5000x128 := Rect.unit (s := S5000x128) ![0, 0] S5000x128.size inb_S5000x128_S5000x128_0_0
abbrev rWeight : Rect S128x128 := Rect.unit (s := S128x128) ![0, 0] S128x128.size inb_S128x128_S128x128_0_0

/-- What the body leaves in the result tile: its one store, of the product of the x tile and the weight. -/
def outTile (x0 : Vec F S5000x128 .f32) (x1 : Vec F S128x128 .f32) : Vec F S5000x128 .f32 :=
  View.canon [⟨rTile, k0_pay1 (View.ld x0 rTile) (View.ld x1 rWeight)⟩]

/-- The one store covers the tile. -/
theorem outTile_cover (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body -/

set_option maxHeartbeats 1000000 in
/-- The body on whole staging buffers — the x tile at `x0`, the weight at `x1`, the result tile at anything — ends with the
    inputs as they were and the result tile at `outTile x0 x1`. -/
theorem sound_kernel (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outTile_cover _)

/-! ## The proof data of the launch -/

/-- The arrays as the launch finds them; after the body at point `t` each input's buffer at its tile and the result's at
    `outTile` of the two; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_out (c : Dev nD) (t : Fin cfg0.N) : (dats m 0 c).after 2 t = outTile (iblk m c 0 t) (iblk m c 1 t) := by dsimp only [dats]

/-- Each input's current staging buffer holds its tile at every point, fetched there or not (the weight is fetched once:
    its block index never moves). -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)
theorem before_w (c : Dev nD) (t : Fin cfg0.N) (d) : (dats m 0 c).before 1 t d = iblk m c 1 t :=
  ((dats m 0 c).before_in_eq_fetched 1 rfl (fun _ => rfl) (fun _ _ _ => rfl)
      (fun t => by rw [after_w]; unfold Dat.blockOf iblk; rw [A_eq]; try rfl) t d).trans
    (by unfold Dat.fetched Dat.blockOf iblk; rw [A_eq]; try rfl)

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; the three arrays of the launch end at what the proof data say, every other
    unscoped buffer as the later host lines leave it. -/
theorem run_main : θ_run defs (onTc (τ := τ) (main (F := F))) (s₀ m ρ)
    (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- The later lines write neither the bias nor the index table. -/
theorem later_arg (b : Ref sig .tc) (hb : ∀ w, Pipeline.arrRef spec0 w ≠ b)
    (hw : ∀ op ∈ (laterOps : List (List (HloOp τ sig (Elt F)))).flatten, Proc.devRef .tc b ∉ op.writes) (c : Dev nD) :
    Pipeline.afterTail₀ cfgs (dats m) 0 (V0 m) laterOps c b = V m c b := by
  unfold Pipeline.afterTail₀
  rw [StableHlo.after_of_forall_not_mem (b := Proc.devRef .tc b) _ _ hw,
    Pipeline.withArrays_of_ne _ c (V0 m c) _ b hb]

theorem later_writes (b : Ref sig .tc)
    (hb : b ≠ main_cst ∧ b ≠ main_v5 ∧ b ≠ main_cst_0 ∧ b ≠ main_v6 ∧ b ≠ main_v7 ∧ b ≠ main_v8 ∧ b ≠ main_cst_1 ∧ b ≠ main_v9 ∧ b ≠ main_v10
      ∧ b ≠ main_v11 ∧ b ≠ main_cst_2 ∧ b ≠ main_v12 ∧ b ≠ main_v13 ∧ b ≠ main_cst_3 ∧ b ≠ main_v14 ∧ b ≠ main_v15 ∧ b ≠ main_cst_4
      ∧ b ≠ main_call0_v0 ∧ b ≠ main_call0_v1 ∧ b ≠ main_v16
      ∧ b ≠ main_v17 ∧ b ≠ main_cst_5 ∧ b ≠ main_v18 ∧ b ≠ main_v19 ∧ b ≠ main_cst_6 ∧ b ≠ main_v20 ∧ b ≠ main_v21 ∧ b ≠ main_cst_7
      ∧ b ≠ main_call1_v0 ∧ b ≠ main_call1_v1 ∧ b ≠ main_v22
      ∧ b ≠ main_v23 ∧ b ≠ main_c ∧ b ≠ main_v24 ∧ b ≠ main_v25 ∧ b ≠ main_c_8 ∧ b ≠ main_v26 ∧ b ≠ main_v27 ∧ b ≠ main_v28 ∧ b ≠ main_v29 ∧ b ≠ main_v30
      ∧ b ≠ main_cst_9 ∧ b ≠ main_v31 ∧ b ≠ main_v32 ∧ b ≠ main_v33 ∧ b ≠ main_v34 ∧ b ≠ main_v35 ∧ b ≠ main_c_10 ∧ b ≠ main_v36 ∧ b ≠ main_v37
      ∧ b ≠ main_c_11 ∧ b ≠ main_v38 ∧ b ≠ main_v39 ∧ b ≠ main_v40 ∧ b ≠ main_v41 ∧ b ≠ main_v42 ∧ b ≠ main_cst_12 ∧ b ≠ main_v43 ∧ b ≠ main_v44
      ∧ b ≠ main_v45 ∧ b ≠ main_v46 ∧ b ≠ main_v47 ∧ b ≠ main_v48 ∧ b ≠ main_v49 ∧ b ≠ main_v50) :
    ∀ op ∈ (laterOps : List (List (HloOp τ sig (Elt F)))).flatten, Proc.devRef .tc b ∉ op.writes := by
  refine List.forall_iff_forall_mem.mp ?_
  simp only [hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes,
    StableHlo.reshape_writes, Finset.mem_singleton]
  obtain ⟨h1, h2, h3, h4, h5, h6, h7, h8, h9, h10, h11, h12, h13, h14, h15, h16, h17, h18, h19, h20, h21, h22, h23, h24, h25, h26, h27, h28, h29, h30,
    h31, h32, h33, h34, h35, h36, h37, h38, h39, h40, h41, h42, h43, h44, h45, h46, h47, h48, h49, h50, h51, h52, h53, h54, h55, h56, h57, h58, h59, h60,
    h61, h62, h63, h64, h65⟩ := hb
  exact ⟨StableHlo.devRef_ne_of_ne h1, StableHlo.devRef_ne_of_ne h2, StableHlo.devRef_ne_of_ne h3, StableHlo.devRef_ne_of_ne h4, StableHlo.devRef_ne_of_ne h5,
    StableHlo.devRef_ne_of_ne h6, StableHlo.devRef_ne_of_ne h7, StableHlo.devRef_ne_of_ne h8, StableHlo.devRef_ne_of_ne h9, StableHlo.devRef_ne_of_ne h10,
    StableHlo.devRef_ne_of_ne h11, StableHlo.devRef_ne_of_ne h12, StableHlo.devRef_ne_of_ne h13, StableHlo.devRef_ne_of_ne h14, StableHlo.devRef_ne_of_ne h15,
    StableHlo.devRef_ne_of_ne h16, StableHlo.devRef_ne_of_ne h17, StableHlo.devRef_ne_of_ne h18, StableHlo.devRef_ne_of_ne h19, StableHlo.devRef_ne_of_ne h20,
    StableHlo.devRef_ne_of_ne h21, StableHlo.devRef_ne_of_ne h22, StableHlo.devRef_ne_of_ne h23, StableHlo.devRef_ne_of_ne h24, StableHlo.devRef_ne_of_ne h25,
    StableHlo.devRef_ne_of_ne h26, StableHlo.devRef_ne_of_ne h27, StableHlo.devRef_ne_of_ne h28, StableHlo.devRef_ne_of_ne h29, StableHlo.devRef_ne_of_ne h30,
    StableHlo.devRef_ne_of_ne h31, StableHlo.devRef_ne_of_ne h32, StableHlo.devRef_ne_of_ne h33, StableHlo.devRef_ne_of_ne h34, StableHlo.devRef_ne_of_ne h35,
    StableHlo.devRef_ne_of_ne h36, StableHlo.devRef_ne_of_ne h37, StableHlo.devRef_ne_of_ne h38, StableHlo.devRef_ne_of_ne h39, StableHlo.devRef_ne_of_ne h40,
    StableHlo.devRef_ne_of_ne h41, StableHlo.devRef_ne_of_ne h42, StableHlo.devRef_ne_of_ne h43, StableHlo.devRef_ne_of_ne h44, StableHlo.devRef_ne_of_ne h45,
    StableHlo.devRef_ne_of_ne h46, StableHlo.devRef_ne_of_ne h47, StableHlo.devRef_ne_of_ne h48, StableHlo.devRef_ne_of_ne h49, StableHlo.devRef_ne_of_ne h50,
    StableHlo.devRef_ne_of_ne h51, StableHlo.devRef_ne_of_ne h52, StableHlo.devRef_ne_of_ne h53, StableHlo.devRef_ne_of_ne h54, StableHlo.devRef_ne_of_ne h55,
    StableHlo.devRef_ne_of_ne h56, StableHlo.devRef_ne_of_ne h57, StableHlo.devRef_ne_of_ne h58, StableHlo.devRef_ne_of_ne h59, StableHlo.devRef_ne_of_ne h60,
    StableHlo.devRef_ne_of_ne h61, StableHlo.devRef_ne_of_ne h62, StableHlo.devRef_ne_of_ne h63, StableHlo.devRef_ne_of_ne h64, StableHlo.devRef_ne_of_ne h65⟩

set_option synthInstance.maxSize 65536 in
theorem W_main_arg2 (c : Dev nD) : Pipeline.afterTail₀ cfgs (dats m) 0 (V0 m) laterOps c main_arg2 = m ((c : Thread nD τ).loc main_arg2) :=
  (later_arg m main_arg2 (by decide) (later_writes main_arg2 (by decide)) c).trans (V_main_arg2 m c)
set_option synthInstance.maxSize 65536 in
theorem W_main_arg3 (c : Dev nD) : Pipeline.afterTail₀ cfgs (dats m) 0 (V0 m) laterOps c main_arg3 = m ((c : Thread nD τ).loc main_arg3) :=
  (later_arg m main_arg3 (by decide) (later_writes main_arg3 (by decide)) c).trans (V_main_arg3 m c)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Hand

end
-- ==== Proof.Spec.lean ====
/-
  The matrix product as one function of the two argument arrays, entry by entry: the entry in row r and
  column j of x · weight is the sum over k of x[r, k] · weight[k, j], on the extended reals (no rounding,
  no order of summation left in it).  Both programs compute this array and then run the same later lines on it.
-/
import Idealize.ShloMosaic.PureOps.Ideal
import Idealize.ShloMosaic.Lib.ValueIdx

noncomputable section

namespace HyperConv

open Idealize.ShloMosaic Idealize.ShloMosaic.ValueIdx

/-- x · weight at the index i = (r, j): the sum over the 128 columns of x / rows of weight. -/
def prodRows (x : (⟨⟨2, ![100000, 128]⟩, .f32⟩ : BufTy).Contents (Elt Ideal)) (w : (⟨⟨2, ![128, 128]⟩, .f32⟩ : BufTy).Contents (Elt Ideal)) :
    (⟨⟨2, ![100000, 128]⟩, .f32⟩ : BufTy).Contents (Elt Ideal) :=
  fun i => ∑ k : Fin 128, x (ix2 (n0 := 100000) (n1 := 128) (i 0) k) * w (ix2 (n0 := 128) (n1 := 128) k (i 1))

theorem prodRows_apply (x : (⟨⟨2, ![100000, 128]⟩, .f32⟩ : BufTy).Contents (Elt Ideal)) (w : (⟨⟨2, ![128, 128]⟩, .f32⟩ : BufTy).Contents (Elt Ideal))
    (r : Fin 100000) (j : Fin 128) :
    prodRows x w (ix2 r j) = ∑ k : Fin 128, x (ix2 r k) * w (ix2 k j) := rfl

end HyperConv

end
-- ==== Proof.KernelIdealProduct.lean ====
/-
  The array the launch leaves: x · weight.
  At grid point t the body's one payload is the matrix product (into a zero accumulator; the change of float
  format on the way in is the identity on the extended reals) of rows 5000·t … 5000·t + 4999 of x with the whole
  weight, so the tile written back is rows 5000·t … of the array `prodRows x weight`; the twenty tiles cover the
  100000 rows (row r lies in tile r / 5000), so the array ends as `prodRows x weight`.
-/
import proofs.«180807_j39307540693803_2_alg».proof.Proof.KernelIdealFrame
import proofs.«180807_j39307540693803_2_alg».proof.Proof.Spec
import Idealize.ShloMosaic.Lib.Pipeline.Value
import Idealize.ShloMosaic.Lib.ValueIdx
import Idealize.ShloMosaic.PureOps.Ideal.Laws

noncomputable section

namespace Cert.KernelIdeal.Hyper

open Cert.KernelIdeal Cert.KernelIdeal.Gen Cert.KernelIdeal.Hand Idealize.ShloMosaic Idealize.ShloMosaic.TcCoe Idealize.SL.Sem
open Idealize.ShloMosaic.ValueIdx HyperConv
open Idealize.ShloMosaic.Pipeline (Dat)

/-! ## The payload at an index -/

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at row p, column q of the tile: the sum over k of the x tile at (p, k) times the weight at (k, q). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## From tiles to the array -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the x tile and the result tile move together down the rows, one tile per
    point; the weight block and every column index stay at zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x tile at point t, read at (p, k), is x at row 5000·t + p. -/
theorem xTile_apply (c : Dev nD) (t : Fin cfg0.N) (p : Fin 5000) (k : Fin 128) (r : Fin 100000) (hr : r.val = t.val * 5000 + p.val) :
    iblk m c 0 t (ix2 p k) = V m c main_arg0 (ix2 r k) := by
  obtain ⟨e0, e1, e2, e3, e4, e5⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at any point is the whole weight. -/
theorem wTile_apply (c : Dev nD) (t : Fin cfg0.N) (k q : Fin 128) :
    iblk m c 1 t (ix2 k q) = V m c main_arg1 (ix2 k q) := by
  obtain ⟨e0, e1, e2, e3, e4, e5⟩ := idx_facts t
  show V m c main_arg1 (((cfg0.win 1).blk t).view.emb (ix2 k q)) = V m c main_arg1 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is tile t of the product array. -/
theorem flushed_eq (c : Dev nD) (t : Fin cfg0.N) :
    (dats m 0 c).flushed 2 t = ((cfg0.win 2).blk t).view.read (Elt Ideal) (prodRows (V m c main_arg0) (V m c main_arg1)) := by
  show (cfg0.win 2).cut (grid0.coords t) ((dats m 0 c).after 2 t) = _
  rw [after_out]
  unfold outTile
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have ht : t.val < 20 := by
    have h' : t.val < grid0.N := t.isLt
    have hN : grid0.N = 20 := N_0
    omega
  let r : Fin 100000 := ⟨t.val * 5000 + p.val, by have := p.isLt; omega⟩
  have hemb : ((cfg0.win 2).blk t).view.emb (ix2 p q) = ix2 r q := funext fun a => Fin.ext (by
    match a with
    | ⟨0, _⟩ => show win0_2.index t (0 : Fin 2) * 5000 + 1 * p.val = t.val * 5000 + p.val; omega
    | ⟨1, _⟩ => show win0_2.index t (1 : Fin 2) * 128 + 1 * q.val = q.val; omega)
  show k0_pay1 (F := Ideal) (iblk m c 0 t) (iblk m c 1 t) (ix2 p q) = prodRows (V m c main_arg0) (V m c main_arg1) (((cfg0.win 2).blk t).view.emb (ix2 p q))
  rw [hemb, prodRows_apply]
  refine (pay_apply (iblk m c 0 t) (iblk m c 1 t) p q).trans ?_
  refine Finset.sum_congr rfl fun k _ => ?_
  rw [xTile_apply m c t p k r rfl, wTile_apply m c t k q]

/-- An index of the array is in point t's tile iff each coordinate is in the tile's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Row r lies in tile r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hlt : (i 0).val / 5000 < cfg0.N := by show _ < grid0.N; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    have e4' : win0_2.index ⟨(i 0).val / 5000, hlt⟩ (0 : Fin 2) = (i 0).val / 5000 := e4
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- THE ARRAY after the launch: the product of the two argument arrays as launched. -/
theorem product (c : Dev nD) : (dats m 0 c).arrAt 2 cfg0.N
    = prodRows (m ((c : Thread nD τ).loc main_arg0)) (m ((c : Thread nD τ).loc main_arg1)) := by
  rw [(dats m 0 c).arrAt_eq_of_cover 2 (prodRows (V m c main_arg0) (V m c main_arg1)) (fun t _ => flushed_eq m c t) covered,
    V_main_arg0, V_main_arg1]

end Cert.KernelIdeal.Hyper

end
-- ==== Proof.KernelIdealLater.lean ====
/-
  What the host lines after the launch compute from the product h = x · weight, the bias and the two index
  rows (nodes = row 0 of the table, edges = row 1), as one function:
    count ix      — how many of the 1.6 M incidences fall on each of the 100000 slots (a scatter-add of ones);
    invCount ix   — its reciprocal where the count is positive, zero elsewhere;
    spread s d T  — gather the rows of T named by s (a negative index counted from the end), add them into the rows named by d;
    later h b n e — ( spread e n ( spread n e h · invCount e ) ) · invCount n + b, the two per-row factors and the
                    bias broadcast along rows.
  The lines are read back once, from any contents of the buffers they start from, and for any float instance
  (no float operation is opened: the equation is between two spellings of one composed term).
-/
import proofs.«180807_j39307540693803_2_alg».proof.Proof.KernelIdealHost
import Idealize.ShloMosaic.Lib.StableHlo.Run
import Idealize.ShloMosaic.PureOps.Ideal

noncomputable section

namespace Cert.KernelIdeal.Hyper

open Cert.KernelIdeal Cert.KernelIdeal.Gen Idealize.ShloMosaic Idealize.ShloMosaic.TcCoe Idealize.SL.Sem Idealize.ShloMosaic.StableHlo

-- Stated for any float instance: nothing here depends on what a float operation computes.
variable {F : FTy → Type} [FloatOps F]

/-- Row 0 of the index table, as a vector. -/
def nodes (idx : (⟨S2x1600000, .i32⟩ : BufTy).Contents (Elt F)) : (⟨S1600000, .i32⟩ : BufTy).Contents (Elt F) :=
  shapeCast S1600000 (extractStridedSlice S1x1600000 ![0, 0] idx slices_S2x1600000_S1x1600000_0_0) shapeCasts_S1x1600000_S1600000
/-- Row 1 of the index table, as a vector. -/
def edges (idx : (⟨S2x1600000, .i32⟩ : BufTy).Contents (Elt F)) : (⟨S1600000, .i32⟩ : BufTy).Contents (Elt F) :=
  shapeCast S1600000 (extractStridedSlice S1x1600000 ![1, 0] idx slices_S2x1600000_S1x1600000_1_0) shapeCasts_S1x1600000_S1600000

/-- A negative index counts from the end: i ↦ i + 100000 when i < 0. -/
def wrapIdx (ix : (⟨S1600000, .i32⟩ : BufTy).Contents (Elt F)) : (⟨S1600000, .i32⟩ : BufTy).Contents (Elt F) :=
  select (cmpi .slt ix (broadcastInDim S1600000 ![] bcast_S_S1600000 (constantI S_ 32 0#32)))
    (addi ix (broadcastInDim S1600000 ![] bcast_S_S1600000 (constantI S_ 32 100000#32))) ix

/-- How many incidences fall on each slot. -/
def count (ix : (⟨S1600000, .i32⟩ : BufTy).Contents (Elt F)) : (⟨S100000, .f32⟩ : BufTy).Contents (Elt F) :=
  Host.scatterAdd (F := F) scatter_S100000_S1600000x1_S1600000_n_0_0_1
    (broadcastInDim S100000 ![] bcast_S_S100000 (constant (F := F) S_ .f32 0x00000000#32))
    (broadcastInDim S1600000x1 ![0] bcast_S1600000_S1600000x1_0 ix)
    (broadcastInDim S1600000 ![] bcast_S_S1600000 (constant (F := F) S_ .f32 0x3F800000#32))

/-- The reciprocal of the count where it is positive, zero elsewhere. -/
def invCount (ix : (⟨S1600000, .i32⟩ : BufTy).Contents (Elt F)) : (⟨S100000, .f32⟩ : BufTy).Contents (Elt F) :=
  select (cmpf (F := F) .ogt (count ix) (broadcastInDim S100000 ![] bcast_S_S100000 (constant (F := F) S_ .f32 0x00000000#32)))
    (Host.divf (F := F) (broadcastInDim S100000 ![] bcast_S_S100000 (constant (F := F) S_ .f32 0x3F800000#32)) (count ix))
    (broadcastInDim S100000 ![] bcast_S_S100000 (id (constant (F := F) S_ .f32 0x00000000#32)))

/-- Gather the rows of `table` named by `src`, add them into the rows named by `dst` of a zero matrix. -/
def spread (src dst : (⟨S1600000, .i32⟩ : BufTy).Contents (Elt F)) (table : (⟨S100000x128, .f32⟩ : BufTy).Contents (Elt F)) :
    (⟨S100000x128, .f32⟩ : BufTy).Contents (Elt F) :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 table
      (broadcastInDim S1600000x1 ![0] bcast_S1600000_S1600000x1_0 (wrapIdx src)))

/-- A factor per row as a matrix: [100000] → [100000, 1] → [100000, 128]. -/
def rowScale (v : (⟨S100000, .f32⟩ : BufTy).Contents (Elt F)) : (⟨S100000x128, .f32⟩ : BufTy).Contents (Elt F) :=
  broadcastInDim S100000x128 ![0, 1] bcast_S100000x1_S100000x128_0_1 (shapeCast S100000x1 v shapeCasts_S100000_S100000x1)

/-- The bias along every row: [128] → [1, 128] → [100000, 128]. -/
def biasRows (b : (⟨S128, .f32⟩ : BufTy).Contents (Elt F)) : (⟨S100000x128, .f32⟩ : BufTy).Contents (Elt F) :=
  broadcastInDim S100000x128 ![0, 1] bcast_S1x128_S100000x128_0_1 (shapeCast S1x128 b shapeCasts_S128_S1x128)

/-- The two rounds with the scalings and the bias left open: node → edge, times `sB`, edge → node, times `sD`, plus `bR`. -/
def rounds (h : (⟨S100000x128, .f32⟩ : BufTy).Contents (Elt F)) (n e : (⟨S1600000, .i32⟩ : BufTy).Contents (Elt F))
    (sB sD bR : (⟨S100000x128, .f32⟩ : BufTy).Contents (Elt F)) : (⟨S100000x128, .f32⟩ : BufTy).Contents (Elt F) :=
  addf (F := F) (φ := .f32) (mulf (F := F) (φ := .f32) (spread e n (mulf (F := F) (φ := .f32) (spread n e h) sB)) sD) bR

/-- The later lines as one function of the product, the bias and the two index rows. -/
def later (h : (⟨S100000x128, .f32⟩ : BufTy).Contents (Elt F)) (b : (⟨S128, .f32⟩ : BufTy).Contents (Elt F))
    (n e : (⟨S1600000, .i32⟩ : BufTy).Contents (Elt F)) : (⟨S100000x128, .f32⟩ : BufTy).Contents (Elt F) :=
  rounds h n e (rowScale (invCount e)) (rowScale (invCount n)) (biasRows b)

set_option maxHeartbeats 8000000 in
/-- The sixty-five later lines, run from any contents `W` of the buffers, leave in the result buffer `later` of what `W`
    holds at the product's array, the bias and the two index vectors. -/
theorem later_value (W : Valuation τ sig (Elt F)) :
    StableHlo.after (List.flatten (Hand.laterOps (F := F))) W (Proc.devRef .tc main_v50)
      = later (W (Proc.devRef .tc main_v4)) (W (Proc.devRef .tc main_arg2)) (W (Proc.devRef .tc main_v1)) (W (Proc.devRef .tc main_v3)) := by
  simp only [Hand.laterOps, hostOps1, hostOps1_1, hostOps1_2, hostOps1_3, hostOps1_4, List.flatten_cons, List.flatten_nil,
    List.append_nil, List.cons_append, List.nil_append]
  after_results_simp
  rfl

/-- The four lines before the launch leave the two index rows in their buffers. -/
theorem before_nodes (W : Valuation τ sig (Elt F)) :
    StableHlo.after (List.flatten [hostOps0 (F := F)]) W (Proc.devRef .tc main_v1) = nodes (W (Proc.devRef .tc main_arg3)) := by
  simp only [hostOps0, List.flatten_cons, List.flatten_nil, List.append_nil, List.cons_append, List.nil_append]
  after_results_simp
  rfl
theorem before_edges (W : Valuation τ sig (Elt F)) :
    StableHlo.after (List.flatten [hostOps0 (F := F)]) W (Proc.devRef .tc main_v3) = edges (W (Proc.devRef .tc main_arg3)) := by
  simp only [hostOps0, List.flatten_cons, List.flatten_nil, List.append_nil, List.cons_append, List.nil_append]
  after_results_simp
  rfl

end Cert.KernelIdeal.Hyper

end
-- ==== Proof.KernelIdealValue.lean ====
/-
  The launched program's result as one function of its arguments: after the run the result buffer holds
  `later (prodRows x weight) bias nodes edges` — the later host lines applied to what the launch left (the product
  array), to the bias as launched and to the two index rows the first four lines cut out of the table.
-/
import proofs.«180807_j39307540693803_2_alg».proof.Proof.KernelIdealProduct
import proofs.«180807_j39307540693803_2_alg».proof.Proof.KernelIdealLater

noncomputable section

namespace Cert.KernelIdeal.Hyper

open Cert.KernelIdeal Cert.KernelIdeal.Gen Cert.KernelIdeal.Hand Idealize.ShloMosaic Idealize.ShloMosaic.TcCoe Idealize.SL.Sem
open HyperConv
open Idealize.ShloMosaic.Pipeline (Dat)

variable (m : (ℓ : Loc nD τ sig) → Buf (Elt Ideal) ℓ) (ρ : Dev nD → PrngReg)

/-- The launched program's result, as a function of the launch memory. -/
def result (c : Dev nD) : Buf (Elt Ideal) ((c.tc : Thread nD τ).loc main_v50) :=
  later (prodRows (m ((c.tc : Thread nD τ).loc main_arg0)) (m ((c.tc : Thread nD τ).loc main_arg1)))
    (m ((c.tc : Thread nD τ).loc main_arg2))
    (nodes (m ((c.tc : Thread nD τ).loc main_arg3))) (edges (m ((c.tc : Thread nD τ).loc main_arg3)))

/-- What the later lines leave in the result buffer, from the launch's exit contents. -/
theorem later_result (c : Dev nD) :
    Pipeline.afterTail₀ cfgs (dats m) 0 (V0 m) laterOps c main_v50 = result m c := by
  unfold Pipeline.afterTail₀
  refine (later_value _).trans ?_
  have e4 : Pipeline.withArrays (cfgs 0).spec c (V0 m c) (fun w => (dats m 0 c).arrAt w (cfgs 0).N) (Proc.devRef .tc main_v4)
      = (dats m 0 c).arrAt 2 cfg0.N := Pipeline.withArrays_arr spec0 launch0.win.arr_inj c _ _ 2
  have e2 : Pipeline.withArrays (cfgs 0).spec c (V0 m c) (fun w => (dats m 0 c).arrAt w (cfgs 0).N) (Proc.devRef .tc main_arg2)
      = V0 m c (Proc.devRef .tc main_arg2) := Pipeline.withArrays_of_ne _ c _ _ main_arg2 (by decide)
  have e1 : Pipeline.withArrays (cfgs 0).spec c (V0 m c) (fun w => (dats m 0 c).arrAt w (cfgs 0).N) (Proc.devRef .tc main_v1)
      = V0 m c (Proc.devRef .tc main_v1) := Pipeline.withArrays_of_ne _ c _ _ main_v1 (by decide)
  have e3 : Pipeline.withArrays (cfgs 0).spec c (V0 m c) (fun w => (dats m 0 c).arrAt w (cfgs 0).N) (Proc.devRef .tc main_v3)
      = V0 m c (Proc.devRef .tc main_v3) := Pipeline.withArrays_of_ne _ c _ _ main_v3 (by decide)
  unfold result
  exact congr (congr (congr (congrArg later (e4.trans (product m c))) (e2.trans (V_main_arg2 m c)))
    (e1.trans (before_nodes _))) (e3.trans (before_edges _))

/-- THE RUN: every weakly fair execution terminates with the result buffer at `result` and the arguments as launched. -/
theorem run : θ_run defs (onTc (τ := τ) (main (F := Ideal))) ⟨m, fun _ => 0, ρ⟩ fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v50 (Pipeline.mem_restRefs_of main_v50 (by decide) (by decide))).trans (later_result m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Hyper

end
-- ==== Proof.RefLater.lean ====
/-
  The reference's result as the same function as the launched program's.
  The reference's composed term applies, to the host matrix product of x and weight, the later lines of the
  launched program, but for two spellings of a layout step: the per-row factor reaches [100000, 1] by a
  broadcast along axis 0 where the launched program reshapes, and the bias reaches [1, 128] by a broadcast along
  axis 1 where the launched program reshapes.  Either way the same entry is read.  The host matrix product, entry
  by entry, is the sum `prodRows` (a one-axis contraction re-indexed by its one coordinate).
-/
import proofs.«180807_j39307540693803_2_alg».proof.Proof.RefRunPatched
import proofs.«180807_j39307540693803_2_alg».proof.Proof.KernelIdealLater
import proofs.«180807_j39307540693803_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

variable {F : FTy → Type} [FloatOps F]

/-! ## The host matrix product at an index -/

theorem lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's `dot_general` of x and weight is the array `prodRows x weight`. -/
theorem dot_eq (x0 : (⟨S100000x128, .f32⟩ : BufTy).Contents (Elt Ideal)) (x1 : (⟨S128x128, .f32⟩ : BufTy).Contents (Elt Ideal)) :
    Host.dotGeneral (F := Ideal) (φ₁ := .f32) (φ₂ := .f32) dot_S100000x128_S128x128_S100000x128_1_0_0_1_n_n none x0 x1 = HyperConv.prodRows x0 x1 := by
  funext i
  obtain ⟨r, j, rfl⟩ : ∃ (r : Fin 100000) (j : Fin 128), i = ix2 r j := ⟨i 0, i 1, eq_ix2 i⟩
  rw [HyperConv.prodRows_apply]
  refine (Ideal.dotGeneral_apply dot_S100000x128_S128x128_S100000x128_1_0_0_1_n_n none _ x0 x1 (ix2 r j)).trans ?_
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs0 _ _
    | ⟨1, _⟩ => exact (lhs1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs0 _ _).trans hk
    | ⟨1, _⟩ => exact rhs1 _ _)
  rw [el, er]

/-! ## The two layout steps spelt differently -/

/-- A vector as a column: broadcasting [100000] along axis 0 of [100000, 1] reads the same entry as reshaping it. -/
theorem column_eq {α : Type} (v : S100000.Idx → α) :
    broadcastInDim S100000x1 ![0] bcast_S100000_S100000x1_0 v
      = shapeCast S100000x1 v Cert.KernelIdeal.Gen.shapeCasts_S100000_S100000x1 := by
  funext i
  obtain ⟨r, z, rfl⟩ : ∃ (r : Fin 100000) (z : Fin 1), i = ix2 r z := ⟨i 0, i 1, eq_ix2 i⟩
  have hz : z.val = 0 := by have := z.isLt; omega
  refine (broadcastInDim_apply ![0] bcast_S100000_S100000x1_0 v (ix2 r z) (ix1 r) (fun a => by
    match a with
    | ⟨0, _⟩ => show r.val = if (100000 : Nat) = 1 then 0 else r.val; rw [if_neg (by decide)])).trans ?_
  exact (shapeCast_apply v Cert.KernelIdeal.Gen.shapeCasts_S100000_S100000x1 (ix2 r z) (ix1 r) (by
    rw [Shape.rowMajor_val_two, Shape.rowMajor_val_one]; show r.val = r.val * 1 + z.val; omega)).symm

/-- A vector as a row: broadcasting [128] along axis 1 of [1, 128] reads the same entry as reshaping it. -/
theorem row_eq {α : Type} (b : S128.Idx → α) :
    broadcastInDim S1x128 ![1] bcast_S128_S1x128_1 b
      = shapeCast S1x128 b Cert.KernelIdeal.Gen.shapeCasts_S128_S1x128 := by
  funext i
  obtain ⟨z, q, rfl⟩ : ∃ (z : Fin 1) (q : Fin 128), i = ix2 z q := ⟨i 0, i 1, eq_ix2 i⟩
  have hz : z.val = 0 := by have := z.isLt; omega
  refine (broadcastInDim_apply ![1] bcast_S128_S1x128_1 b (ix2 z q) (ix1 q) (fun a => by
    match a with
    | ⟨0, _⟩ => show q.val = if (128 : Nat) = 1 then 0 else q.val; rw [if_neg (by decide)])).trans ?_
  exact (shapeCast_apply b Cert.KernelIdeal.Gen.shapeCasts_S128_S1x128 (ix2 z q) (ix1 q) (by
    rw [Shape.rowMajor_val_two, Shape.rowMajor_val_one]; show q.val = z.val * 128 + q.val; omega)).symm

/-! ## The reference's term -/

set_option maxHeartbeats 4000000 in
/-- For any float instance the reference's composed term is `later` of its host matrix product, the bias and the two
    index rows: the same lines, two layout steps respelt. -/
theorem ref_shape (m : (ℓ : Loc nD τ sig) → Buf (Elt F) ℓ) (c : Dev nD) :
    Cert.ReferenceIdeal.ValueP.res_main_v50 (F := F) m c
      = Cert.KernelIdeal.Hyper.later (F := F)
          (Host.dotGeneral (F := F) (φ₁ := .f32) (φ₂ := .f32) dot_S100000x128_S128x128_S100000x128_1_0_0_1_n_n none (m ((c.tc : Thread nD τ).loc main_arg0)) (m ((c.tc : Thread nD τ).loc main_arg1)))
          (m ((c.tc : Thread nD τ).loc main_arg2))
          (Cert.KernelIdeal.Hyper.nodes (m ((c.tc : Thread nD τ).loc main_arg3)))
          (Cert.KernelIdeal.Hyper.edges (m ((c.tc : Thread nD τ).loc main_arg3))) := by
  unfold Cert.ReferenceIdeal.ValueP.res_main_v50
  have hB : broadcastInDim S100000x128 ![0, 1] bcast_S100000x1_S100000x128_0_1
        (broadcastInDim S100000x1 ![0] bcast_S100000_S100000x1_0 (Cert.KernelIdeal.Hyper.invCount (F := F) (Cert.KernelIdeal.Hyper.edges (m ((c.tc : Thread nD τ).loc main_arg3)))))
      = Cert.KernelIdeal.Hyper.rowScale (Cert.KernelIdeal.Hyper.invCount (Cert.KernelIdeal.Hyper.edges (m ((c.tc : Thread nD τ).loc main_arg3)))) :=
    congrArg (broadcastInDim S100000x128 ![0, 1] bcast_S100000x1_S100000x128_0_1) (column_eq _)
  have hD : broadcastInDim S100000x128 ![0, 1] bcast_S100000x1_S100000x128_0_1
        (broadcastInDim S100000x1 ![0] bcast_S100000_S100000x1_0 (Cert.KernelIdeal.Hyper.invCount (F := F) (Cert.KernelIdeal.Hyper.nodes (m ((c.tc : Thread nD τ).loc main_arg3)))))
      = Cert.KernelIdeal.Hyper.rowScale (Cert.KernelIdeal.Hyper.invCount (Cert.KernelIdeal.Hyper.nodes (m ((c.tc : Thread nD τ).loc main_arg3)))) :=
    congrArg (broadcastInDim S100000x128 ![0, 1] bcast_S100000x1_S100000x128_0_1) (column_eq _)
  have hR : broadcastInDim S100000x128 ![0, 1] bcast_S1x128_S100000x128_0_1 (broadcastInDim S1x128 ![1] bcast_S128_S1x128_1 (m ((c.tc : Thread nD τ).loc main_arg2)))
      = Cert.KernelIdeal.Hyper.biasRows (m ((c.tc : Thread nD τ).loc main_arg2)) :=
    congrArg (broadcastInDim S100000x128 ![0, 1] bcast_S1x128_S100000x128_0_1) (row_eq _)
  have key : Cert.KernelIdeal.Hyper.rounds (F := F) (Host.dotGeneral (F := F) (φ₁ := .f32) (φ₂ := .f32) dot_S100000x128_S128x128_S100000x128_1_0_0_1_n_n none (m ((c.tc : Thread nD τ).loc main_arg0)) (m ((c.tc : Thread nD τ).loc main_arg1))) (Cert.KernelIdeal.Hyper.nodes (m ((c.tc : Thread nD τ).loc main_arg3))) (Cert.KernelIdeal.Hyper.edges (m ((c.tc : Thread nD τ).loc main_arg3)))
        (broadcastInDim S100000x128 ![0, 1] bcast_S100000x1_S100000x128_0_1
          (broadcastInDim S100000x1 ![0] bcast_S100000_S100000x1_0 (Cert.KernelIdeal.Hyper.invCount (F := F) (Cert.KernelIdeal.Hyper.edges (m ((c.tc : Thread nD τ).loc main_arg3))))))
        (broadcastInDim S100000x128 ![0, 1] bcast_S100000x1_S100000x128_0_1
          (broadcastInDim S100000x1 ![0] bcast_S100000_S100000x1_0 (Cert.KernelIdeal.Hyper.invCount (F := F) (Cert.KernelIdeal.Hyper.nodes (m ((c.tc : Thread nD τ).loc main_arg3))))))
        (broadcastInDim S100000x128 ![0, 1] bcast_S1x128_S100000x128_0_1 (broadcastInDim S1x128 ![1] bcast_S128_S1x128_1 (m ((c.tc : Thread nD τ).loc main_arg2))))
      = Cert.KernelIdeal.Hyper.rounds (F := F) (Host.dotGeneral (F := F) (φ₁ := .f32) (φ₂ := .f32) dot_S100000x128_S128x128_S100000x128_1_0_0_1_n_n none (m ((c.tc : Thread nD τ).loc main_arg0)) (m ((c.tc : Thread nD τ).loc main_arg1))) (Cert.KernelIdeal.Hyper.nodes (m ((c.tc : Thread nD τ).loc main_arg3))) (Cert.KernelIdeal.Hyper.edges (m ((c.tc : Thread nD τ).loc main_arg3)))
        (Cert.KernelIdeal.Hyper.rowScale (Cert.KernelIdeal.Hyper.invCount (Cert.KernelIdeal.Hyper.edges (m ((c.tc : Thread nD τ).loc main_arg3)))))
        (Cert.KernelIdeal.Hyper.rowScale (Cert.KernelIdeal.Hyper.invCount (Cert.KernelIdeal.Hyper.nodes (m ((c.tc : Thread nD τ).loc main_arg3)))))
        (Cert.KernelIdeal.Hyper.biasRows (m ((c.tc : Thread nD τ).loc main_arg2))) := by
    rw [hB, hD, hR]
  exact key

/-- On the extended reals the reference's result is `later` of the product array. -/
theorem ref_later (m : (ℓ : Loc nD τ sig) → Buf (Elt Ideal) ℓ) (c : Dev nD) :
    Cert.ReferenceIdeal.ValueP.res_main_v50 (F := Ideal) m c
      = Cert.KernelIdeal.Hyper.later
          (HyperConv.prodRows (m ((c.tc : Thread nD τ).loc main_arg0)) (m ((c.tc : Thread nD τ).loc main_arg1)))
          (m ((c.tc : Thread nD τ).loc main_arg2))
          (Cert.KernelIdeal.Hyper.nodes (m ((c.tc : Thread nD τ).loc main_arg3)))
          (Cert.KernelIdeal.Hyper.edges (m ((c.tc : Thread nD τ).loc main_arg3))) :=
  (ref_shape m c).trans (by rw [dot_eq])

end Cert.ReferenceIdeal.RefValue

end
-- ==== Proof.lean ====
/-
  Hypergraph convolution: out = D⁻¹ · H · B⁻¹ · Hᵀ · (x · weight) + bias, with the incidence matrix H given as 1.6 M
  (node, edge) index pairs, D and B the node and edge degrees (a reciprocal of a zero degree read as zero).

  The launched program computes x · weight in twenty row tiles on the matrix unit (the inputs narrowed to a
  16-bit format on the way in, which on the extended reals is the identity) and then runs sixty-five host lines:
  the two degree counts, their guarded reciprocals, gather / scatter-add node → edge, scale, gather / scatter-add
  edge → node, scale, add the bias.  The reference computes x · weight by one host contraction and runs the same
  lines (two layout steps are spelt as broadcasts where the launched program reshapes).

  Both matrix products are the array  (r, j) ↦ Σₖ x[r, k] · weight[k, j]  (`HyperConv.prodRows`): a sum over one
  contraction axis either way, the launched one into a zero accumulator.  Both programs then apply ONE function
  (`Cert.KernelIdeal.Hyper.later`) to it, so the results are equal whatever the scatter-adds and gathers do,
  infinities included: the precondition is never opened.  The frames: the launch reads x and weight, writes only its
  own result array, and every host line writes only its own result buffer.  The idealization rewrote nothing.
-/
import proofs.«180807_j39307540693803_2_alg».proof.Defs
import proofs.«180807_j39307540693803_2_alg».proof.Proof.KernelFrame
import proofs.«180807_j39307540693803_2_alg».proof.Proof.KernelIdealValue
import proofs.«180807_j39307540693803_2_alg».proof.Proof.RefLater
import proofs.«180807_j39307540693803_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result buffer at `later (prodRows x weight) bias nodes edges` of arguments that agree. -/
theorem algebraic : Cert.algebraic_KernelIdeal_ReferenceIdeal := by
  intro m ρ m' ρ' _ hagree
  refine ⟨Cert.KernelIdeal.Hyper.result m, Cert.KernelIdeal.Hyper.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.ref_later, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
